-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x400x512 : Shape := ⟨3, ![8, 400, 512]⟩
abbrev S8x101x512 : Shape := ⟨3, ![8, 101, 512]⟩
abbrev S5x512 : Shape := ⟨2, ![5, 512]⟩
abbrev S5 : Shape := ⟨1, ![5]⟩
abbrev S_ : Shape := ⟨0, ![]⟩

class Facts : Prop where
  bcast_S_S8x400x512 : S_.BroadcastsInDim S8x400x512 (![] : Fin 0 → Fin S8x400x512.rank)
  reducesTo_S8x400x512_S_d0_1_2 : S8x400x512.ReducesTo [0, 1, 2] S_
  h_S_ : 0 < S_.numel
  bcast_S_S8x101x512 : S_.BroadcastsInDim S8x101x512 (![] : Fin 0 → Fin S8x101x512.rank)
  reducesTo_S8x101x512_S_d0_1_2 : S8x101x512.ReducesTo [0, 1, 2] S_
  bcast_S_S5x512 : S_.BroadcastsInDim S5x512 (![] : Fin 0 → Fin S5x512.rank)
  reducesTo_S5x512_S_d0_1 : S5x512.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_v13 : IVec S_ 1) (main_v16 : IVec S5 1) : IVec S_ 1 :=
  let main_c_5 : IVec S_ 1 := constantI S_ 1 1#1
  let main_v17 : IVec S_ 1 := (fun x v => Host.reduce IntOp.andi x v reducesTo_S5_S_d0 h_S_) main_v16 main_c_5
  let main_v18 : IVec S_ 1 := andi main_v13 main_v17
  main_v18

def fn {F : FTy → Type} [FloatOps F] (main_arg0 : FVec F S8x400x512 .f32) (main_arg1 : FVec F S8x101x512 .f32) (main_arg2 : FVec F S5x512 .f32) (main_arg3 : FVec F S5 .f32) : IVec S_ 1 :=
  let main_v0 : FVec F S8x400x512 .f32 := Host.absf main_arg0
  let main_cst : FVec F S_ .f32 := constant S_ .f32 0x7F800000#32
  let main_v1 : FVec F S8x400x512 .f32 := broadcastInDim S8x400x512 ![] bcast_S_S8x400x512 main_cst
  let main_v2 : IVec S8x400x512 1 := cmpf .olt main_v0 main_v1
  let main_c : IVec S_ 1 := constantI S_ 1 1#1
  let main_v3 : IVec S_ 1 := (fun x v => Host.reduce IntOp.andi x v reducesTo_S8x400x512_S_d0_1_2 h_S_) main_v2 main_c
  let main_v4 : FVec F S8x101x512 .f32 := Host.absf main_arg1
  let main_cst_0 : FVec F S_ .f32 := constant S_ .f32 0x7F800000#32
  let main_v5 : FVec F S8x101x512 .f32 := broadcastInDim S8x101x512 ![] bcast_S_S8x101x512 main_cst_0
  let main_v6 : IVec S8x101x512 1 := cmpf .olt main_v4 main_v5
  let main_c_1 : IVec S_ 1 := constantI S_ 1 1#1
  let main_v7 : IVec S_ 1 := (fun x v => Host.reduce IntOp.andi x v reducesTo_S8x101x512_S_d0_1_2 h_S_) main_v6 main_c_1
  let main_v8 : IVec S_ 1 := andi main_v3 main_v7
  let main_v9 : FVec F S5x512 .f32 := Host.absf main_arg2
  let main_cst_2 : FVec F S_ .f32 := constant S_ .f32 0x7F800000#32
  let main_v10 : FVec F S5x512 .f32 := broadcastInDim S5x512 ![] bcast_S_S5x512 main_cst_2
  let main_v11 : IVec S5x512 1 := cmpf .olt main_v9 main_v10
  let main_c_3 : IVec S_ 1 := constantI S_ 1 1#1
  let main_v12 : IVec S_ 1 := (fun x v => Host.reduce IntOp.andi x v reducesTo_S5x512_S_d0_1 h_S_) main_v11 main_c_3
  let main_v13 : IVec S_ 1 := andi main_v8 main_v12
  let main_v14 : FVec F S5 .f32 := Host.absf main_arg3
  let main_cst_4 : FVec F S_ .f32 := constant S_ .f32 0x7F800000#32
  let main_v15 : FVec F S5 .f32 := broadcastInDim S5 ![] bcast_S_S5 main_cst_4
  let main_v16 : IVec S5 1 := cmpf .olt main_v14 main_v15
  fn_part1 (F := F) main_v13 main_v16
-- ==== Kernel.lean ====
abbrev S8x400x512 : Shape := ⟨3, ![8, 400, 512]⟩
abbrev S8x101x512 : Shape := ⟨3, ![8, 101, 512]⟩
abbrev S5x512 : Shape := ⟨2, ![5, 512]⟩
abbrev S5 : Shape := ⟨1, ![5]⟩
abbrev S1x5 : Shape := ⟨2, ![1, 5]⟩
abbrev S8x400x101x5 : Shape := ⟨4, ![8, 400, 101, 5]⟩
abbrev S1x40x512 : Shape := ⟨3, ![1, 40, 512]⟩
abbrev S1x101x512 : Shape := ⟨3, ![1, 101, 512]⟩
abbrev S1x40x101x5 : Shape := ⟨4, ![1, 40, 101, 5]⟩
abbrev S40x512 : Shape := ⟨2, ![40, 512]⟩
abbrev S101x512 : Shape := ⟨2, ![101, 512]⟩
abbrev S40x1x512 : Shape := ⟨3, ![40, 1, 512]⟩
abbrev S40x101x512 : Shape := ⟨3, ![40, 101, 512]⟩
abbrev S4040x512 : Shape := ⟨2, ![4040, 512]⟩
abbrev S512x5 : Shape := ⟨2, ![512, 5]⟩
abbrev S4040x5 : Shape := ⟨2, ![4040, 5]⟩
abbrev S1x1x5 : Shape := ⟨3, ![1, 1, 5]⟩
abbrev S40x101x5 : Shape := ⟨3, ![40, 101, 5]⟩

abbrev nBuf : Space → Nat
  | .hbm => 6
  | .vmem => 8
  | .smem => 0
  | _ => 0

abbrev bufTy : (tb : Table) → Fin (tcTables nBuf tb) → BufTy
  | .hbm, ⟨0, _⟩ => ⟨S8x400x512, .f32⟩
  | .hbm, ⟨1, _⟩ => ⟨S8x101x512, .f32⟩
  | .hbm, ⟨2, _⟩ => ⟨S5x512, .f32⟩
  | .hbm, ⟨3, _⟩ => ⟨S5, .f32⟩
  | .hbm, ⟨4, _⟩ => ⟨S1x5, .f32⟩
  | .hbm, ⟨5, _⟩ => ⟨S8x400x101x5, .f32⟩
  | .local _ .vmem, ⟨0, _⟩ => ⟨S1x40x512, .f32⟩
  | .local _ .vmem, ⟨1, _⟩ => ⟨S1x40x512, .f32⟩
  | .local _ .vmem, ⟨2, _⟩ => ⟨S1x101x512, .f32⟩
  | .local _ .vmem, ⟨3, _⟩ => ⟨S1x101x512, .f32⟩
  | .local _ .vmem, ⟨4, _⟩ => ⟨S5x512, .f32⟩
  | .local _ .vmem, ⟨5, _⟩ => ⟨S1x5, .f32⟩
  | .local _ .vmem, ⟨6, _⟩ => ⟨S1x40x101x5, .f32⟩
  | .local _ .vmem, ⟨7, _⟩ => ⟨S1x40x101x5, .f32⟩
  | _, _ => ⟨S8x400x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x40x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x101x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S5x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x40x101x5 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S5_S1x5 : S5.ShapeCasts S1x5
  inb_S1x40x512_S1x40x512_0_0_0 : ∀ a, (![0, 0, 0] : Fin 3 → Nat) a + S1x40x512.size a ≤ S1x40x512.size a
  h_S1x40x512 : 0 < S1x40x512.numel
  shapeCasts_S1x40x512_S40x512 : S1x40x512.ShapeCasts S40x512
  inb_S1x101x512_S1x101x512_0_0_0 : ∀ a, (![0, 0, 0] : Fin 3 → Nat) a + S1x101x512.size a ≤ S1x101x512.size a
  h_S1x101x512 : 0 < S1x101x512.numel
  shapeCasts_S1x101x512_S101x512 : S1x101x512.ShapeCasts S101x512
  shapeCasts_S40x512_S40x1x512 : S40x512.ShapeCasts S40x1x512
  shapeCasts_S101x512_S1x101x512 : S101x512.ShapeCasts S1x101x512
  broadcasts_S40x1x512_S40x101x512 : S40x1x512.Broadcasts S40x101x512
  broadcasts_S1x101x512_S40x101x512 : S1x101x512.Broadcasts S40x101x512
  bitsLt_bf16_f32 : FTy.bits .bf16 < FTy.bits .f32
  shapeCasts_S40x101x512_S4040x512 : S40x101x512.ShapeCasts S4040x512
  inb_S5x512_S5x512_0_0 : ∀ a, (![0, 0] : Fin 2 → Nat) a + S5x512.size a ≤ S5x512.size a
  h_S5x512 : 0 < S5x512.numel
  transposes_S5x512_p1_0_S512x5 : S5x512.Transposes [1, 0] S512x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  shapeCasts_S1x5_S1x1x5 : S1x5.ShapeCasts S1x1x5
  shapeCasts_S4040x5_S40x101x5 : S4040x5.ShapeCasts S40x101x5
  broadcasts_S1x1x5_S40x101x5 : S1x1x5.Broadcasts S40x101x5
  inb_S1x40x101x5_S1x40x101x5_0_0_0_0 : ∀ a, (![0, 0, 0, 0] : Fin 4 → Nat) a + S1x40x101x5.size a ≤ S1x40x101x5.size a
  h_S1x40x101x5 : 0 < S1x40x101x5.numel
  shapeCasts_S1x40x101x5_S40x101x5 : S1x40x101x5.ShapeCasts S40x101x5
  shapeCasts_S40x101x5_S1x40x101x5 : S40x101x5.ShapeCasts S1x40x101x5
  dot_S4040x512_S512x5_S4040x5_1_0_0_1_n_n_wf : DotDims.WF S4040x512 S512x5 S4040x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x40x512.size a ≤ S8x400x512.size a
  hwx0_0 : ∀ i : grid0.Coords, EltTy.bits .f32 = 32 ∨ (Rect.block (s := S8x400x512) S1x40x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x101x512.size a ≤ S8x101x512.size a
  hwx0_1 : ∀ i : grid0.Coords, EltTy.bits .f32 = 32 ∨ (Rect.block (s := S8x101x512) S1x101x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x512.size a ≤ S5x512.size a
  hwx0_2 : ∀ i : grid0.Coords, EltTy.bits .f32 = 32 ∨ (Rect.block (s := S5x512) S5x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x5.size a ≤ S1x5.size a
  hwx0_3 : ∀ i : grid0.Coords, EltTy.bits .f32 = 32 ∨ (Rect.block (s := S1x5) S1x5.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x40x101x5.size a ≤ S8x400x101x5.size a
  hwx0_4 : ∀ i : grid0.Coords, EltTy.bits .f32 = 32 ∨ (Rect.block (s := S8x400x101x5) S1x40x101x5.size (cc0_transform_4 i) (hinb0_4 i)).WholeWords (EltTy.packing .f32)

variable [Facts₀]

def dot_S4040x512_S512x5_S4040x5_1_0_0_1_n_n : DotDims S4040x512 S512x5 S4040x5 where
  lhsContracting := [1]
  rhsContracting := [0]
  lhsNonContracting := [0]
  rhsNonContracting := [1]
  lhsBatch := []
  rhsBatch := []
  wf := dot_S4040x512_S512x5_S4040x5_1_0_0_1_n_n_wf

abbrev win0_0 : Pipeline.Window sig grid0 :=
  Pipeline.Window.ofSpec (Memref.whole main_arg0) S1x40x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x101x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x40x101x5.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x400x512 : Shape := ⟨3, ![8, 400, 512]⟩
abbrev S8x101x512 : Shape := ⟨3, ![8, 101, 512]⟩
abbrev S5x512 : Shape := ⟨2, ![5, 512]⟩
abbrev S5 : Shape := ⟨1, ![5]⟩
abbrev S8x400x1x512 : Shape := ⟨4, ![8, 400, 1, 512]⟩
abbrev S8x1x101x512 : Shape := ⟨4, ![8, 1, 101, 512]⟩
abbrev S8x400x101x512 : Shape := ⟨4, ![8, 400, 101, 512]⟩
abbrev S8x400x101x5 : Shape := ⟨4, ![8, 400, 101, 5]⟩
abbrev S1x1x1x5 : Shape := ⟨4, ![1, 1, 1, 5]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8x400x512, .f32⟩
  | .hbm, ⟨1, _⟩ => ⟨S8x101x512, .f32⟩
  | .hbm, ⟨2, _⟩ => ⟨S5x512, .f32⟩
  | .hbm, ⟨3, _⟩ => ⟨S5, .f32⟩
  | .hbm, ⟨4, _⟩ => ⟨S8x400x1x512, .f32⟩
  | .hbm, ⟨5, _⟩ => ⟨S8x1x101x512, .f32⟩
  | .hbm, ⟨6, _⟩ => ⟨S8x400x101x512, .f32⟩
  | .hbm, ⟨7, _⟩ => ⟨S8x400x101x512, .f32⟩
  | .hbm, ⟨8, _⟩ => ⟨S8x400x101x512, .f32⟩
  | .hbm, ⟨9, _⟩ => ⟨S8x400x101x5, .f32⟩
  | .hbm, ⟨10, _⟩ => ⟨S1x1x1x5, .f32⟩
  | .hbm, ⟨11, _⟩ => ⟨S8x400x101x5, .f32⟩
  | .hbm, ⟨12, _⟩ => ⟨S8x400x101x5, .f32⟩
  | .hbm, ⟨13, _⟩ => ⟨S_, .f32⟩
  | .hbm, ⟨14, _⟩ => ⟨S8x400x101x5, .f32⟩
  | .hbm, ⟨15, _⟩ => ⟨S8x400x101x5, .i1⟩
  | .hbm, ⟨16, _⟩ => ⟨S_, .f32⟩
  | .hbm, ⟨17, _⟩ => ⟨S8x400x101x5, .f32⟩
  | .hbm, ⟨18, _⟩ => ⟨S8x400x101x5, .f32⟩
  | .hbm, ⟨19, _⟩ => ⟨S8x400x101x5, .f32⟩
  | _, _ => ⟨S8x400x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S8x400x512_S8x400x1x512_0_1_3 : S8x400x512.BroadcastsInDim S8x400x1x512 (![0, 1, 3] : Fin 3 → Fin S8x400x1x512.rank)
  bcast_S8x101x512_S8x1x101x512_0_2_3 : S8x101x512.BroadcastsInDim S8x1x101x512 (![0, 2, 3] : Fin 3 → Fin S8x1x101x512.rank)
  bcast_S8x400x1x512_S8x400x101x512_0_1_2_3 : S8x400x1x512.BroadcastsInDim S8x400x101x512 (![0, 1, 2, 3] : Fin 4 → Fin S8x400x101x512.rank)
  bcast_S8x1x101x512_S8x400x101x512_0_1_2_3 : S8x1x101x512.BroadcastsInDim S8x400x101x512 (![0, 1, 2, 3] : Fin 4 → Fin S8x400x101x512.rank)
  bcast_S5_S1x1x1x5_3 : S5.BroadcastsInDim S1x1x1x5 (![3] : Fin 1 → Fin S1x1x1x5.rank)
  bcast_S1x1x1x5_S8x400x101x5_0_1_2_3 : S1x1x1x5.BroadcastsInDim S8x400x101x5 (![0, 1, 2, 3] : Fin 4 → Fin S8x400x101x5.rank)
  bcast_S_S8x400x101x5 : S_.BroadcastsInDim S8x400x101x5 (![] : Fin 0 → Fin S8x400x101x5.rank)
  dot_S8x400x101x512_S5x512_S8x400x101x5_3_1_012_0_n_n_wf : DotDims.WF S8x400x101x512 S5x512 S8x400x101x5 [3] [1] [0, 1, 2] [0] [] []

variable [Facts₀]

def dot_S8x400x101x512_S5x512_S8x400x101x5_3_1_012_0_n_n : DotDims S8x400x101x512 S5x512 S8x400x101x5 where
  lhsContracting := [3]
  rhsContracting := [1]
  lhsNonContracting := [0, 1, 2]
  rhsNonContracting := [0]
  lhsBatch := []
  rhsBatch := []
  wf := dot_S8x400x101x512_S5x512_S8x400x101x5_3_1_012_0_n_n_wf

class Facts : Prop extends Facts₀ where

variable [Facts]
-- ==== Proof.Spec.lean ====
/-
  The function both programs compute, as ONE function of the four argument arrays, index by index, on the extended
  reals. For a batch entry `b`, a time step `t`, a label position `u` and an output channel `v`,

      logit b t u v = (Σ_h (trans[b,t,h] + preds[b,u,h]) · W[v,h]) + bias[v],

  the sum over the 512 hidden coordinates, and the result is the leaky rectifier of the logit: the logit itself where it is
  at least zero, the f32 constant nearest one tenth times the logit elsewhere. The two float constants are kept as their
  binary words: both programs carry the same words, so nothing here depends on their values.
-/
import Idealize.ShloMosaic.PureOps.Ideal
import Idealize.ShloMosaic.Lib.ValueIdx

noncomputable section

open scoped BigOperators

namespace Cert.JointSpec

open Idealize.ShloMosaic Idealize.ShloMosaic.ValueIdx

/-- The leaky rectifier on the extended reals: `x` where `x ≥ 0` (the ordered comparison against the zero word), the
    slope word times `x` elsewhere. -/
def leaky (x : Ideal .f32) : Ideal .f32 :=
  Scalar.select (FloatOps.cmpf (F := Ideal) (φ := .f32) .oge x (FloatOps.ofBits .f32 0x00000000#32)) x
    (FloatOps.mulf (F := Ideal) (φ := .f32) (FloatOps.ofBits .f32 0x3DCCCCCD#32) x)

/-- The affine map before the rectifier: the inner product over the hidden axis of the summed encoder and predictor
    rows with row `v` of the weights, plus the bias of channel `v`. -/
def logit (tr : (⟨3, ![8, 400, 512]⟩ : Shape).Idx → EReal) (pr : (⟨3, ![8, 101, 512]⟩ : Shape).Idx → EReal)
    (W : (⟨2, ![5, 512]⟩ : Shape).Idx → EReal) (bias : (⟨1, ![5]⟩ : Shape).Idx → EReal)
    (b : Fin 8) (t : Fin 400) (u : Fin 101) (v : Fin 5) : EReal :=
  (∑ h : Fin 512, (tr (ix3 b t h) + pr (ix3 b u h)) * W (ix2 v h)) + bias (ix1 v)

/-- The whole result array: the rectified logit at every (batch, time, label, channel) index. -/
def G (tr : (⟨3, ![8, 400, 512]⟩ : Shape).Idx → EReal) (pr : (⟨3, ![8, 101, 512]⟩ : Shape).Idx → EReal)
    (W : (⟨2, ![5, 512]⟩ : Shape).Idx → EReal) (bias : (⟨1, ![5]⟩ : Shape).Idx → EReal) :
    (⟨4, ![8, 400, 101, 5]⟩ : Shape).Idx → EReal :=
  fun i => leaky (logit tr pr W bias (i 0) (i 1) (i 2) (i 3))

end Cert.JointSpec

end
-- ==== Proof.Payload.lean ====
/-
  The kernel body's one store, read at an index. The body sees a block of 40 time steps of one batch entry: the encoder
  block [1, 40, 512], the predictor rows [1, 101, 512] of that entry, the weights [5, 512] and the bias [1, 5]. It lays
  the 40 × 101 sums (encoder row + predictor row) out as 4040 rows of 512, multiplies by the transposed weights into a
  zero accumulator, views the 4040 × 5 product as [40, 101, 5], adds the bias and applies the rectifier. Row `r·101 + u`
  of the 4040 is the pair (time `r`, label `u`): that is the row-major position of (r, u) in [40, 101]. So at the block
  index (0, r, u, v) the store holds the rectified

      (Σ_h (enc[0,r,h] + pred[0,u,h]) · W[v,h]) + bias[0,v].

  The two narrowings to bf16 are the identity on the extended reals.
-/
import proofs.«100565_j23648089931873_1_alg».proof.Proof.Gen.KernelIdeal.Skeleton
import proofs.«100565_j23648089931873_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.JointBody

open Idealize.ShloMosaic Idealize.ShloMosaic.ValueIdx Cert.KernelIdeal Cert.KernelIdeal.Gen Cert.JointSpec

/-- The encoder block viewed [40, 1, 512] and repeated along the label axis reads, at (r, u, h), the block at (0, r, h). -/
theorem enc_apply (v0 : Vec Ideal S1x40x512 .f32) (h1 : S1x40x512.ShapeCasts S40x512) (h2 : S40x512.ShapeCasts S40x1x512)
    (h3 : S40x1x512.Broadcasts S40x101x512) (r : Fin 40) (u : Fin 101) (h : Fin 512) :
    broadcastTo S40x101x512 (shapeCast S40x1x512 (shapeCast S40x512 v0 h1) h2) h3 (ix3 r u h) = v0 (ix3 (0 : Fin 1) r h) := by
  refine (broadcastTo_apply _ h3 (ix3 r u h) (ix3 r (0 : Fin 1) h) (fun a => ?_)).trans ?_
  · match a with
    | ⟨0, _⟩ => show r.val = if (40 : Nat) = 1 then 0 else r.val; rw [if_neg (by decide)]
    | ⟨1, _⟩ => show 0 = if (1 : Nat) = 1 then 0 else u.val; rw [if_pos rfl]
    | ⟨2, _⟩ => show h.val = if (512 : Nat) = 1 then 0 else h.val; rw [if_neg (by decide)]
  · refine (shapeCast_apply _ h2 (ix3 r (0 : Fin 1) h) (ix2 r h) ?_).trans (shapeCast_1ab_ab_apply v0 h1 r h)
    rw [Shape.rowMajor_val_two, Shape.rowMajor_val_three]
    show r.val * 512 + h.val = (r.val * 1 + 0) * 512 + h.val
    omega

/-- The predictor rows, squeezed and unsqueezed (the identity) and repeated along the time axis, read at (r, u, h) the
    rows at (0, u, h). -/
theorem pred_apply (v2 : Vec Ideal S1x101x512 .f32) (h4 : S1x101x512.ShapeCasts S101x512) (h5 : S101x512.ShapeCasts S1x101x512)
    (h6 : S1x101x512.Broadcasts S40x101x512) (r : Fin 40) (u : Fin 101) (h : Fin 512) :
    broadcastTo S40x101x512 (shapeCast S1x101x512 (shapeCast S101x512 v2 h4) h5) h6 (ix3 r u h) = v2 (ix3 (0 : Fin 1) u h) := by
  rw [shapeCast_shapeCast]
  refine broadcastTo_apply v2 h6 (ix3 r u h) (ix3 (0 : Fin 1) u h) (fun a => ?_)
  match a with
  | ⟨0, _⟩ => show 0 = if (1 : Nat) = 1 then 0 else r.val; rw [if_pos rfl]
  | ⟨1, _⟩ => show u.val = if (101 : Nat) = 1 then 0 else u.val; rw [if_neg (by decide)]
  | ⟨2, _⟩ => show h.val = if (512 : Nat) = 1 then 0 else h.val; rw [if_neg (by decide)]

/-- Row `i 0` of the product reads row `i 0` of the left operand, whatever the contracted coordinate. -/
theorem lhs_row (i : S4040x5.Idx) (q : dot_S4040x512_S512x5_S4040x5_1_0_0_1_n_n.contr.Idx) :
    (dot_S4040x512_S512x5_S4040x5_1_0_0_1_n_n.lhsIdx i q 0).val = (i 0).val := by
  unfold DotDims.lhsIdx
  rw [dif_neg (show ¬(0 : Fin S4040x512.rank) ∈ dot_S4040x512_S512x5_S4040x5_1_0_0_1_n_n.lhsBatch by decide),
    dif_pos (show (0 : Fin S4040x512.rank) ∈ dot_S4040x512_S512x5_S4040x5_1_0_0_1_n_n.lhsNonContracting by decide)]
  rfl

/-- Column `i 1` of the product reads column `i 1` of the right operand, whatever the contracted coordinate. -/
theorem rhs_col (i : S4040x5.Idx) (q : dot_S4040x512_S512x5_S4040x5_1_0_0_1_n_n.contr.Idx) :
    (dot_S4040x512_S512x5_S4040x5_1_0_0_1_n_n.rhsIdx i q 1).val = (i 1).val := by
  unfold DotDims.rhsIdx
  rw [dif_neg (show ¬(1 : Fin S512x5.rank) ∈ dot_S4040x512_S512x5_S4040x5_1_0_0_1_n_n.rhsBatch by decide),
    dif_pos (show (1 : Fin S512x5.rank) ∈ dot_S4040x512_S512x5_S4040x5_1_0_0_1_n_n.rhsNonContracting by decide)]
  rfl

/-- The block product into a zero accumulator, at (row, v), is the sum over the 512 contracted coordinates of the left
    operand's row times the right operand's column. -/
theorem product_apply (A : FVec Ideal S4040x512 .bf16) (B : FVec Ideal S512x5 .bf16) (row : Fin 4040) (v : Fin 5) :
    matmul dot_S4040x512_S512x5_S4040x5_1_0_0_1_n_n none A B (constant (F := Ideal) S4040x5 .f32 0x00000000#32) (ix2 row v)
      = ∑ h : Fin 512, A (ix2 row h) * B (ix2 h v) := by
  simp only [matmul]
  rw [Ideal.matmul_constant_zero_apply, ← Equiv.sum_comp (contrEquiv1 dot_S4040x512_S512x5_S4040x5_1_0_0_1_n_n 512 rfl rfl).symm]
  refine Finset.sum_congr rfl fun k _ => ?_
  have hk := contrEquiv1_symm_val dot_S4040x512_S512x5_S4040x5_1_0_0_1_n_n 512 rfl rfl k
  have el : dot_S4040x512_S512x5_S4040x5_1_0_0_1_n_n.lhsIdx (ix2 row v)
      ((contrEquiv1 dot_S4040x512_S512x5_S4040x5_1_0_0_1_n_n 512 rfl rfl).symm k) = ix2 row k := funext fun a => Fin.ext (by
    match a with
    | ⟨0, _⟩ => exact lhs_row _ _
    | ⟨1, _⟩ => exact (dot_S4040x512_S512x5_S4040x5_1_0_0_1_n_n.lhsIdx_val_of_single rfl _ _).trans hk)
  have er : dot_S4040x512_S512x5_S4040x5_1_0_0_1_n_n.rhsIdx (ix2 row v)
      ((contrEquiv1 dot_S4040x512_S512x5_S4040x5_1_0_0_1_n_n 512 rfl rfl).symm k) = ix2 k v := funext fun a => Fin.ext (by
    match a with
    | ⟨0, _⟩ => exact (dot_S4040x512_S512x5_S4040x5_1_0_0_1_n_n.rhsIdx_val_of_single rfl _ _).trans hk
    | ⟨1, _⟩ => exact rhs_col _ _)
  rw [el, er]

/-- The bias row, viewed [1, 1, 5] and repeated over times and labels, reads at (r, u, v) the row at (0, v). -/
theorem bias_apply (v15 : Vec Ideal S1x5 .f32) (h1 : S1x5.ShapeCasts S1x5) (h2 : S1x5.ShapeCasts S1x1x5)
    (h3 : S1x1x5.Broadcasts S40x101x5) (r : Fin 40) (u : Fin 101) (v : Fin 5) :
    broadcastTo S40x101x5 (shapeCast S1x1x5 (shapeCast S1x5 v15 h1) h2) h3 (ix3 r u v) = v15 (ix2 (0 : Fin 1) v) := by
  rw [shapeCast_self]
  refine (broadcastTo_apply _ h3 (ix3 r u v) (ix3 (0 : Fin 1) (0 : Fin 1) v) (fun a => ?_)).trans
    (shapeCast_ab_1ab_apply v15 h2 (0 : Fin 1) (0 : Fin 1) v)
  match a with
  | ⟨0, _⟩ => show 0 = if (1 : Nat) = 1 then 0 else r.val; rw [if_pos rfl]
  | ⟨1, _⟩ => show 0 = if (1 : Nat) = 1 then 0 else u.val; rw [if_pos rfl]
  | ⟨2, _⟩ => show v.val = if (5 : Nat) = 1 then 0 else v.val; rw [if_neg (by decide)]

/-- The body's last three operations — compare with the zero splat, scale by the slope splat, select — are the rectifier
    of the element. -/
theorem leaky_vec (X : FVec Ideal S40x101x5 .f32) (j : S40x101x5.Idx) :
    select (cmpf .oge X (broadcast S40x101x5 (FloatOps.ofBits (F := Ideal) .f32 0x00000000#32))) X
      (mulf (broadcast S40x101x5 (FloatOps.ofBits (F := Ideal) .f32 0x3DCCCCCD#32)) X) j = leaky (X j) := rfl

/-- THE STORE AT AN INDEX: at (0, r, u, v) of the output block the body stores the rectified logit of the loaded blocks —
    time `r` of the encoder block, label `u` of the predictor rows, channel `v` of the weights and of the bias. -/
theorem pay_apply (v0 : Vec Ideal S1x40x512 .f32) (v2 : Vec Ideal S1x101x512 .f32) (v11 : Vec Ideal S5x512 .f32)
    (v15 : Vec Ideal S1x5 .f32) (z : Fin 1) (r : Fin 40) (u : Fin 101) (v : Fin 5) :
    k0_pay1 (F := Ideal) v0 v2 v11 v15 (ix4 z r u v)
      = leaky ((∑ h : Fin 512, (v0 (ix3 (0 : Fin 1) r h) + v2 (ix3 (0 : Fin 1) u h)) * v11 (ix2 v h)) + v15 (ix2 (0 : Fin 1) v)) := by
  have hrow : r.val * 101 + u.val < 4040 := by have := r.isLt; have := u.isLt; omega
  unfold k0_pay1
  refine (shapeCast_abc_1abc_apply _ _ z r u v).trans ?_
  refine (leaky_vec _ _).trans (congrArg leaky ?_)
  refine (addf_apply _ _ _).trans (congrArg₂ (· + ·) ?_ (bias_apply v15 _ _ _ r u v))
  refine (shapeCast_apply _ _ (ix3 r u v) (ix2 (⟨r.val * 101 + u.val, hrow⟩ : Fin 4040) v) ?_).trans ?_
  · rw [Shape.rowMajor_val_two, Shape.rowMajor_val_three]
    show (r.val * 101 + u.val) * 5 + v.val = (r.val * 101 + u.val) * 5 + v.val
    rfl
  refine (product_apply _ _ _ v).trans (Finset.sum_congr rfl fun h _ => ?_)
  refine congrArg₂ (· * ·) ?_ (transpose_ix2_apply _ _ h v)
  refine (shapeCast_apply _ _ (ix2 (⟨r.val * 101 + u.val, hrow⟩ : Fin 4040) h) (ix3 r u h) ?_).trans ?_
  · rw [Shape.rowMajor_val_two, Shape.rowMajor_val_three]
    show (r.val * 101 + u.val) * 512 + h.val = (r.val * 101 + u.val) * 512 + h.val
    rfl
  exact congrArg₂ (· + ·) (enc_apply v0 _ _ _ r u h) (pred_apply v2 _ _ _ r u h)

end Cert.JointBody

end
-- ==== Proof.Blocks.lean ====
/-
  From blocks to the whole array. The grid has 8 × 10 points; point (b, q) stages batch entry `b`'s time steps
  40q … 40q + 39 of the encoder array, all 101 predictor rows of entry `b`, the whole weights and the whole bias row, and
  writes back block (b, q, 0, 0) of the result: entries [b, 40q + r, u, v]. So the element of the result at (b, t, u, v) is
  written by point (b, t / 40), from time `t mod 40` of that point's encoder block — which is row `t` of entry `b` — and from
  row `u` of entry `b`'s predictor rows: the store's value there is the specification at (b, t, u, v). The 80 blocks tile the
  result, so after the run the result array IS the specification of the four argument arrays.
  The bias the kernel stages is the bias vector viewed [1, 5] by the one host operation before the call.
-/
import proofs.«100565_j23648089931873_1_alg».proof.Proof.Gen.KernelIdeal.Value
import proofs.«100565_j23648089931873_1_alg».proof.Proof.Payload
import Idealize.ShloMosaic.Lib.StableHlo.Run

noncomputable section

open scoped BigOperators

namespace Cert.JointKernel

open Cert.KernelIdeal Cert.KernelIdeal.Gen Cert.KernelIdeal.Value Idealize.ShloMosaic Idealize.ShloMosaic.TcCoe Idealize.SL.Sem
open Idealize.ShloMosaic.ValueIdx Cert.JointSpec Cert.JointBody
open Idealize.ShloMosaic.Pipeline (Dat)

variable (m : (ℓ : Loc nD τ sig) → Buf (Elt Ideal) ℓ) (ρ : Dev nD → PrngReg)

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros2 : (![0, 0] : Fin 2 → Nat) = fun _ => 0 := funext fun a => by fin_cases a <;> rfl

/-! ## The index maps, decided over the 80 points -/

/-- The encoder window moves with the result window on the batch and time-block axes; the predictor window on the batch
    axis only; the weights and the bias never move; the result window's block index is (b, q, 0, 0) with b < 8, q < 10. -/
theorem index_facts : ∀ t : Fin cfg0.N,
    win0_0.index t (0 : Fin 3) = win0_4.index t (0 : Fin 4) ∧ win0_0.index t (1 : Fin 3) = win0_4.index t (1 : Fin 4)
    ∧ win0_0.index t (2 : Fin 3) = 0
    ∧ win0_1.index t (0 : Fin 3) = win0_4.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (2 : Fin 4) = 0 ∧ win0_4.index t (3 : Fin 4) = 0
    ∧ win0_4.index t (0 : Fin 4) < 8 ∧ win0_4.index t (1 : Fin 4) < 10 :=
  (by decide +kernel : ∀ t : Fin grid0.N, _)

/-- Every block (b, q, 0, 0) of the result is some point's. -/
theorem index_onto : ∀ (b : Fin 8) (q : Fin 10), ∃ t : Fin cfg0.N, win0_4.index t = ![b.val, q.val, 0, 0] :=
  (by decide +kernel : ∀ (b : Fin 8) (q : Fin 10), ∃ t : Fin grid0.N, win0_4.index t = ![b.val, q.val, 0, 0])

/-! ## The input blocks at a point, read at coordinates -/

/-- The encoder block at a point, at (·, r, h), is the encoder argument at (b, 40q + r, h), (b, q) the point's result block. -/
theorem enc_blk (c : Dev nD) (t : Fin cfg0.N) (z : Fin 1) (r : Fin 40) (h : Fin 512) (b : Fin 8) (tt : Fin 400)
    (hb : b.val = win0_4.index t (0 : Fin 4)) (htt : tt.val = win0_4.index t (1 : Fin 4) * 40 + r.val) :
    (iblk m c 0 t : Vec Ideal S1x40x512 .f32) (ix3 z r h)
      = (m ((c : Thread nD τ).loc main_arg0) : S8x400x512.Idx → EReal) (ix3 b tt h) := by
  obtain ⟨e0, e1, e2, -⟩ := index_facts t
  have hz := z.isLt
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 1 + 1 * z.val = b.val; omega
  | ⟨1, _⟩ => show win0_0.index t (1 : Fin 3) * 40 + 1 * r.val = tt.val; omega
  | ⟨2, _⟩ => show win0_0.index t (2 : Fin 3) * 512 + 1 * h.val = h.val; omega

/-- The predictor rows at a point, at (·, u, h), are the predictor argument at (b, u, h). -/
theorem pred_blk (c : Dev nD) (t : Fin cfg0.N) (z : Fin 1) (u : Fin 101) (h : Fin 512) (b : Fin 8)
    (hb : b.val = win0_4.index t (0 : Fin 4)) :
    (iblk m c 1 t : Vec Ideal S1x101x512 .f32) (ix3 z u h)
      = (m ((c : Thread nD τ).loc main_arg1) : S8x101x512.Idx → EReal) (ix3 b u h) := by
  obtain ⟨-, -, -, e3, e4, e5, -⟩ := index_facts t
  have hz := z.isLt
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 3) * 1 + 1 * z.val = b.val; omega
  | ⟨1, _⟩ => show win0_1.index t (1 : Fin 3) * 101 + 1 * u.val = u.val; omega
  | ⟨2, _⟩ => show win0_1.index t (2 : Fin 3) * 512 + 1 * h.val = h.val; omega

/-- The weights block at every point is the weights argument. -/
theorem weights_blk (c : Dev nD) (t : Fin cfg0.N) (v : Fin 5) (h : Fin 512) :
    (iblk m c 2 t : Vec Ideal S5x512 .f32) (ix2 v h) = (m ((c : Thread nD τ).loc main_arg2) : S5x512.Idx → EReal) (ix2 v h) := by
  obtain ⟨-, -, -, -, -, -, e6, e7, -⟩ := index_facts t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t (0 : Fin 2) * 5 + 1 * v.val = v.val; omega
  | ⟨1, _⟩ => show win0_2.index t (1 : Fin 2) * 512 + 1 * h.val = h.val; omega

/-- The array the bias window stages: the bias argument viewed [1, 5] by the host operation before the call. -/
theorem bias_entry (c : Dev nD) :
    (V m c main_v0 : S1x5.Idx → EReal)
      = shapeCast S1x5 (m ((c : Thread nD τ).loc main_arg3) : S5.Idx → EReal) shapeCasts_S5_S1x5 := by
  unfold V; after_results; rfl

/-- The bias block at every point, at (·, v), is the bias argument at `v`. -/
theorem bias_blk (c : Dev nD) (t : Fin cfg0.N) (z : Fin 1) (v : Fin 5) :
    (iblk m c 3 t : Vec Ideal S1x5 .f32) (ix2 z v) = (m ((c : Thread nD τ).loc main_arg3) : S5.Idx → EReal) (ix1 v) := by
  obtain ⟨-, -, -, -, -, -, -, -, e8, e9, -⟩ := index_facts t
  have hz := z.isLt
  unfold iblk
  rw [View.read_apply]
  show (V m c main_v0 : S1x5.Idx → EReal) _ = _
  rw [bias_entry]
  refine Eq.trans (congrArg _ (funext fun a => Fin.ext ?_)) (shapeCast_a_1a_apply _ shapeCasts_S5_S1x5 z v)
  match a with
  | ⟨0, _⟩ => show win0_3.index t (0 : Fin 2) * 1 + 1 * z.val = z.val; omega
  | ⟨1, _⟩ => show win0_3.index t (1 : Fin 2) * 5 + 1 * v.val = v.val; omega

/-! ## What a point writes back -/

/-- WHAT POINT `t` WRITES BACK is block `t` of the specification of the four argument arrays. -/
theorem flushed_eq (c : Dev nD) (t : Fin cfg0.N) :
    (dats m 0 c).flushed 4 t = ((cfg0.win 4).blk t).view.read (Elt Ideal)
      (G (m ((c : Thread nD τ).loc main_arg0)) (m ((c : Thread nD τ).loc main_arg1)) (m ((c : Thread nD τ).loc main_arg2))
        (m ((c : Thread nD τ).loc main_arg3))) := by
  rw [Value.flushed4]
  unfold out0_4
  rw [View.canon_unit_zero zeros4]
  simp only [View.ld_unit_zero (S := S1x40x512) zeros3, View.ld_unit_zero (S := S1x101x512) zeros3,
    View.ld_unit_zero (S := S5x512) zeros2, View.ld_unit_zero (S := S1x5) zeros2]
  obtain ⟨-, -, -, -, -, -, -, -, -, -, e10, e11, e12, e13⟩ := index_facts t
  refine funext fun (j : S1x40x101x5.Idx) => ?_
  obtain ⟨z, r, u, v, rfl⟩ : ∃ (z : Fin 1) (r : Fin 40) (u : Fin 101) (v : Fin 5), j = ix4 z r u v :=
    ⟨j 0, j 1, j 2, j 3, eq_ix4 j⟩
  have hz := z.isLt
  have hr := r.isLt
  have hemb : ((cfg0.win 4).blk t).view.emb (ix4 z r u v)
      = ix4 (⟨win0_4.index t (0 : Fin 4), e12⟩ : Fin 8) (⟨win0_4.index t (1 : Fin 4) * 40 + r.val, by omega⟩ : Fin 400) u v :=
    funext fun a => Fin.ext (by
      match a with
      | ⟨0, _⟩ => show win0_4.index t (0 : Fin 4) * 1 + 1 * z.val = win0_4.index t (0 : Fin 4); omega
      | ⟨1, _⟩ => show win0_4.index t (1 : Fin 4) * 40 + 1 * r.val = win0_4.index t (1 : Fin 4) * 40 + r.val; omega
      | ⟨2, _⟩ => show win0_4.index t (2 : Fin 4) * 101 + 1 * u.val = u.val; omega
      | ⟨3, _⟩ => show win0_4.index t (3 : Fin 4) * 5 + 1 * v.val = v.val; omega)
  show k0_pay1 (F := Ideal) (iblk m c 0 t) (iblk m c 1 t) (iblk m c 2 t) (iblk m c 3 t) (ix4 z r u v)
    = G (m ((c : Thread nD τ).loc main_arg0)) (m ((c : Thread nD τ).loc main_arg1)) (m ((c : Thread nD τ).loc main_arg2))
        (m ((c : Thread nD τ).loc main_arg3)) (((cfg0.win 4).blk t).view.emb (ix4 z r u v))
  refine (pay_apply (iblk m c 0 t) (iblk m c 1 t) (iblk m c 2 t) (iblk m c 3 t) z r u v).trans ?_
  refine Eq.trans ?_ (congrArg (G (m ((c : Thread nD τ).loc main_arg0)) (m ((c : Thread nD τ).loc main_arg1))
    (m ((c : Thread nD τ).loc main_arg2)) (m ((c : Thread nD τ).loc main_arg3))) hemb).symm
  refine congrArg leaky (congrArg₂ (· + ·) (Finset.sum_congr rfl fun h _ => congrArg₂ (· * ·) (congrArg₂ (· + ·) ?_ ?_) ?_) ?_)
  · exact enc_blk m c t 0 r h _ _ rfl rfl
  · exact pred_blk m c t 0 u h _ rfl
  · exact weights_blk m c t v h
  · exact bias_blk m c t 0 v

/-! ## The blocks tile the result -/

/-- An index of the result is in point `t`'s block iff each coordinate is in the block's range on its axis. -/
theorem mem_blk (t : Fin cfg0.N) (i : S8x400x101x5.Idx) :
    i ∈ ((cfg0.win 4).blk t).view.set ↔ ∀ a : Fin 4, win0_4.index t a * S1x40x101x5.size a ≤ (i a).val
      ∧ (i a).val < win0_4.index t a * S1x40x101x5.size a + S1x40x101x5.size a := by
  show i ∈ ((View.whole main_v1).slice (win0_4.rect t)).set ↔ _
  rw [View.set_slice_whole, Rect.mem_set_unit]
  exact Iff.rfl

/-- Every index (b, t, u, v) of the result lies in the block of the point whose result block is (b, t / 40, 0, 0). -/
theorem cover (i : S8x400x101x5.Idx) :
    ∃ t : Fin cfg0.N, (cfg0.win 4).flush t = true ∧ i ∈ ((cfg0.win 4).blk t).view.set := by
  have hi0 : (i 0).val < 8 := (i 0).isLt
  have hi1 : (i 1).val < 400 := (i 1).isLt
  have hi2 : (i 2).val < 101 := (i 2).isLt
  have hi3 : (i 3).val < 5 := (i 3).isLt
  obtain ⟨t, ht⟩ := index_onto ⟨(i 0).val, hi0⟩ ⟨(i 1).val / 40, by omega⟩
  have q0 : win0_4.index t (0 : Fin 4) = (i 0).val := congrFun ht 0
  have q1 : win0_4.index t (1 : Fin 4) = (i 1).val / 40 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 40 ≤ (i 1).val ∧ (i 1).val < win0_4.index t (1 : Fin 4) * 40 + 40; omega
  | ⟨2, _⟩ => show win0_4.index t (2 : Fin 4) * 101 ≤ (i 2).val ∧ (i 2).val < win0_4.index t (2 : Fin 4) * 101 + 101; omega
  | ⟨3, _⟩ => show win0_4.index t (3 : Fin 4) * 5 ≤ (i 3).val ∧ (i 3).val < win0_4.index t (3 : Fin 4) * 5 + 5; omega

/-- THE RESULT ARRAY after the run is the specification of the four argument arrays. -/
theorem final (c : Dev nD) :
    (dats m 0 c).arrAt 4 cfg0.N
      = G (m ((c : Thread nD τ).loc main_arg0)) (m ((c : Thread nD τ).loc main_arg1)) (m ((c : Thread nD τ).loc main_arg2))
          (m ((c : Thread nD τ).loc main_arg3)) :=
  (dats m 0 c).arrAt_eq_of_cover 4 _ (fun t _ => flushed_eq m c t) cover

/-! ## The run, read -/

/-- Every weakly fair execution of the idealized kernel terminates with the result at the specification of the arguments,
    the arguments unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.JointKernel

end
-- ==== Proof.RefSpec.lean ====
/-
  The reference computes the specification. Its program broadcasts the encoder rows along the label axis and the
  predictor rows along the time axis, adds them, contracts the hidden axis against the weights, adds the bias broadcast
  from the channel axis, and selects between the sum and the slope word times the sum on the sign of the sum. Read at an
  index (b, t, u, v), each broadcast names one coordinate tuple of its operand, and the contraction is the sum over the
  hidden coordinate: exactly `logit b t u v`, then the rectifier.
-/
import proofs.«100565_j23648089931873_1_alg».proof.Proof.Gen.ReferenceIdeal.Read
import proofs.«100565_j23648089931873_1_alg».proof.Proof.Spec

noncomputable section

open scoped BigOperators

namespace Cert.JointRef

open Idealize.ShloMosaic Idealize.ShloMosaic.ValueIdx Cert.ReferenceIdeal Cert.ReferenceIdeal.Read Cert.JointSpec

/-- The reference's sum before the comparison, at an index, is the logit of that index's four coordinates. -/
theorem logits_apply (x0 : S8x400x512.Idx → EReal) (x1 : S8x101x512.Idx → EReal) (x2 : S5x512.Idx → EReal) (x3 : S5.Idx → EReal)
    (i : S8x400x101x5.Idx) :
    val_main_v8 (F := Ideal) x0 x1 x2 x3 i = logit x0 x1 x2 x3 (i 0) (i 1) (i 2) (i 3) := by
  have e0 : ∀ k : Fin 512, idx_main_v0 (idx_main_v2 (lidx_main_v5 i k)) = ix3 (i 0) (i 1) k := fun k =>
    funext fun a => Fin.ext (by match a with | ⟨0, _⟩ => rfl | ⟨1, _⟩ => rfl | ⟨2, _⟩ => rfl)
  have e1 : ∀ k : Fin 512, idx_main_v1 (idx_main_v3 (lidx_main_v5 i k)) = ix3 (i 0) (i 2) k := fun k =>
    funext fun a => Fin.ext (by match a with | ⟨0, _⟩ => rfl | ⟨1, _⟩ => rfl | ⟨2, _⟩ => rfl)
  have e2 : ∀ k : Fin 512, ridx_main_v5 i k = ix2 (i 3) k := fun k =>
    funext fun a => Fin.ext (by match a with | ⟨0, _⟩ => rfl | ⟨1, _⟩ => rfl)
  have e3 : idx_main_v6 (idx_main_v7 i) = ix1 (i 3) :=
    funext fun a => Fin.ext (by match a with | ⟨0, _⟩ => rfl)
  rw [val_main_v8_apply, val_main_v5_apply, val_main_v7_apply, val_main_v6_apply, e3]
  unfold logit
  refine congrArg (· + x3 (ix1 (i 3))) (Finset.sum_congr rfl fun k _ => ?_)
  rw [val_main_v4_apply, val_main_v2_apply, val_main_v0_apply, val_main_v3_apply, val_main_v1_apply, e0, e1, e2]
  rfl

/-- The reference's result array is the specification of its four arguments. -/
theorem ref_eq (x0 : S8x400x512.Idx → EReal) (x1 : S8x101x512.Idx → EReal) (x2 : S5x512.Idx → EReal) (x3 : S5.Idx → EReal) :
    val_main_v13 (F := Ideal) x0 x1 x2 x3 = G x0 x1 x2 x3 := by
  funext i
  rw [val_main_v13_apply, val_main_v10_apply, val_main_v12_apply, val_main_v9_apply, val_main_v11_apply,
    val_main_cst_apply, val_main_cst_0_apply, logits_apply]
  rfl

end Cert.JointRef

end
-- ==== Proof.lean ====
/-
  The kernel and its reference compute the same array on the extended reals.

  Both take an encoder array trans[8, 400, 512], a predictor array preds[8, 101, 512], weights W[5, 512] and a bias b[5], and
  return out[8, 400, 101, 5] with

      out[b, t, u, v] = leaky( (Σ_h (trans[b,t,h] + preds[b,u,h]) · W[v,h]) + b[v] ),

  leaky(x) = x where x ≥ 0 and c·x elsewhere, c the f32 constant nearest one tenth (the same binary word in both programs).
  The reference forms the four-axis sum of broadcasts, contracts the hidden axis against W in one contraction, adds the bias
  and selects. The kernel walks an 8 × 10 grid; at a point it holds 40 time steps of one batch entry, lays the 40 × 101 row
  sums out as 4040 rows, multiplies by the transposed weights into a zero accumulator (after narrowing both operands to
  bf16, the identity on the extended reals), adds the bias and selects; the 80 written blocks tile the result.
  Index by index the two are the SAME sum of the same 512 products, so no law beyond reading each side at an index is
  needed, and the inputs' finiteness is never used.

  Spec.lean states that function; RefSpec.lean reads the reference's run at an index; Payload.lean reads the kernel body's
  store at an index; Blocks.lean carries the store from blocks to the whole array. Here the five claims are assembled: the
  two kernels' frames and the reference's run are the generated ones, the idealization rewrote nothing, and the two runs end
  at the one specification term of arguments that agree.
-/
import proofs.«100565_j23648089931873_1_alg».proof.Defs
import proofs.«100565_j23648089931873_1_alg».proof.Proof.Gen.Kernel
import proofs.«100565_j23648089931873_1_alg».proof.Proof.Gen.Kernel.Frame
import proofs.«100565_j23648089931873_1_alg».proof.Proof.Gen.KernelIdeal
import proofs.«100565_j23648089931873_1_alg».proof.Proof.Gen.KernelIdeal.Frame
import proofs.«100565_j23648089931873_1_alg».proof.Proof.Gen.KernelIdeal.Value
import proofs.«100565_j23648089931873_1_alg».proof.Proof.Gen.ReferenceIdeal
import proofs.«100565_j23648089931873_1_alg».proof.Proof.Gen.ReferenceIdeal.Run
import proofs.«100565_j23648089931873_1_alg».proof.Proof.Gen.ReferenceIdeal.Read
import proofs.«100565_j23648089931873_1_alg».proof.Proof.Gen.Pre_finite_inputs
import proofs.«100565_j23648089931873_1_alg».proof.Proof.Blocks
import proofs.«100565_j23648089931873_1_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, with the statement about its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories that agree on the four arguments, the kernel's result array ends at the specification of its arguments and
    the reference's at the specification of its own: one array. -/
theorem algebraic : Cert.algebraic_KernelIdeal_ReferenceIdeal := by
  intro m ρ m' ρ' _ hagree
  refine ⟨_, Cert.JointKernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.JointRef.ref_eq, (hagree c).1, (hagree c).2.1, (hagree c).2.2.1,
    (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
